-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S2048x1024 : Shape := ⟨2, ![2048, 1024]⟩
abbrev S2048 : Shape := ⟨1, ![2048]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x1024 .f32) (main_arg1 : FVec F S2048x1024 .f32) (main_arg2 : FVec F S2048 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S16384x1024 : Shape := ⟨2, ![16384, 1024]⟩
abbrev S2048x1024 : Shape := ⟨2, ![2048, 1024]⟩
abbrev S2048 : Shape := ⟨1, ![2048]⟩
abbrev S1x2048 : Shape := ⟨2, ![1, 2048]⟩
abbrev S16384x2048 : Shape := ⟨2, ![16384, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S2048, .f32⟩
  | .hbm, ⟨3, _⟩ => ⟨S2048x1024, .bf16⟩
  | .hbm, ⟨4, _⟩ => ⟨S1x2048, .f32⟩
  | .hbm, ⟨5, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S2048_S1x2048 : S2048.ShapeCasts S1x2048
  inb_S512x1024_S512x1024_0_0 : ∀ a, (![0, 0] : Fin 2 → Nat) a + S512x1024.size a ≤ S512x1024.size a
  h_S512x1024 : 0 < S512x1024.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x1024_S512 : S512x1024.Reduces [1] S512
  shapeCasts_S512_S512x1 : S512.ShapeCasts S512x1
  broadcasts_S512x1_S512x2048 : S512x1.Broadcasts S512x2048
  inb_S512x2048_S512x2048_0_0 : ∀ a, (![0, 0] : Fin 2 → Nat) a + S512x2048.size a ≤ S512x2048.size a
  h_S512x2048 : 0 < S512x2048.numel
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S2048x1024 : Shape := ⟨2, ![2048, 1024]⟩
abbrev S2048 : Shape := ⟨1, ![2048]⟩
abbrev S16384x2048 : Shape := ⟨2, ![16384, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S2048, .f32⟩
  | .hbm, ⟨3, _⟩ => ⟨S16384x2048, .f32⟩
  | .hbm, ⟨4, _⟩ => ⟨S1x2048, .f32⟩
  | .hbm, ⟨5, _⟩ => ⟨S16384x2048, .f32⟩
  | .hbm, ⟨6, _⟩ => ⟨S16384x2048, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x2048_0_1 : S16384x1.BroadcastsInDim S16384x2048 (![0, 1] : Fin 2 → Fin S16384x2048.rank)
  dot_S16384x1024_S2048x1024_S16384x2048_1_1_0_0_n_n_wf : DotDims.WF S16384x1024 S2048x1024 S16384x2048 [1] [1] [0] [0] [] []

variable [Facts₀]

def dot_S16384x1024_S2048x1024_S16384x2048_1_1_0_0_n_n : DotDims S16384x1024 S2048x1024 S16384x2048 where
  lhsContracting := [1]
  rhsContracting := [1]
  lhsNonContracting := [0]
  rhsNonContracting := [0]
  lhsBatch := []
  rhsBatch := []
  wf := dot_S16384x1024_S2048x1024_S16384x2048_1_1_0_0_n_n_wf

class Facts : Prop extends Facts₀ where

variable [Facts]
-- ==== Proof.FeatureLaw.lean ====
/-
  The positive random feature of a row, as one function of the three argument arrays, and the one law that joins
  the two arrangements of it.

  For a row `n` of `x` and a feature `s` write `P = Σ_k x[n,k]·w[s,k] + b[s]` (the projection) and
  `Q = -½ · Σ_k x[n,k]²` (minus half the row's squared length), and let `c` be the scale. One program computes
  `c · exp (P + Q)`, the other `(exp Q · c) · exp P`. On the extended reals `exp` (with `exp ⊥ = 0` and
  `exp ⊤ = ⊤`) turns EVERY sum into the product: the only doubtful corner is `⊥ + ⊤ = ⊥`, where both sides are `0`
  because `0 · ⊤ = 0`. So the two arrangements agree at all arguments, finite or not, and what remains is
  commutativity and associativity of the product.
-/
import Idealize.ShloMosaic.PureOps.Ideal
import Idealize.ShloMosaic.PureOps.Ideal.Laws
import Idealize.ShloMosaic.Lib.ValueIdx

noncomputable section

open scoped BigOperators

namespace Cert.Feature

open Idealize.ShloMosaic Idealize.ShloMosaic.ValueIdx

/-! ## The exponential of a sum -/

/-- On the extended reals the exponential of a sum is the product of the exponentials, at every pair of arguments:
    for two reals it is the real law; a `⊥` summand makes the sum `⊥` and the product `0`; otherwise a `⊤` summand
    makes the sum `⊤`, and the product `⊤` because the other factor is positive. -/
theorem exp_add (a b : EReal) : Ideal.exp (a + b) = Ideal.exp a * Ideal.exp b := by
  induction a using EReal.rec with
  | bot => rw [EReal.bot_add, Ideal.exp_bot, zero_mul]
  | coe r =>
    induction b using EReal.rec with
    | bot => rw [EReal.add_bot, Ideal.exp_bot, mul_zero]
    | coe s =>
      rw [← EReal.coe_add, Ideal.exp_coe, Ideal.exp_coe, Ideal.exp_coe, Real.exp_add, EReal.coe_mul]
    | top => rw [EReal.coe_add_top, Ideal.exp_top, Ideal.exp_coe, EReal.coe_mul_top_of_pos (Real.exp_pos r)]
  | top =>
    induction b using EReal.rec with
    | bot => rw [EReal.add_bot, Ideal.exp_bot, mul_zero]
    | coe s => rw [EReal.top_add_coe, Ideal.exp_top, Ideal.exp_coe, EReal.top_mul_coe_of_pos (Real.exp_pos s)]
    | top => rw [EReal.top_add_top, Ideal.exp_top, EReal.top_mul_top]

/-- The two arrangements of one feature: the exponential of the row term times the scale, times the exponential of
    the projection, is the scale times the exponential of the two exponents' sum. -/
theorem arrange (c p q : EReal) : (Ideal.exp q * c) * Ideal.exp p = c * Ideal.exp (p + q) := by
  rw [exp_add, mul_comm (Ideal.exp q) c, mul_assoc, mul_comm (Ideal.exp q) (Ideal.exp p)]

/-! ## The feature as one function of the argument arrays -/

/-- The scale `2048^(-1/2)` as the single-precision word both programs carry. -/
def scale : EReal := Ideal.ofBits .f32 0x3CB504F3#32

/-- The word of `-1/2`. -/
def negHalf : EReal := Ideal.ofBits .f32 0xBF000000#32

variable (x : (⟨2, ![16384, 1024]⟩ : Shape).Idx → EReal) (w : (⟨2, ![2048, 1024]⟩ : Shape).Idx → EReal)
  (b : (⟨1, ![2048]⟩ : Shape).Idx → EReal)

/-- The projection of row `n` on feature `s`: the row's inner product with row `s` of `w`, plus the bias. -/
def proj (n : Fin 16384) (s : Fin 2048) : EReal := ∑ k : Fin 1024, x (ix2 n k) * w (ix2 s k) + b (ix1 s)

/-- Minus half the squared length of row `n`. -/
def rowTerm (n : Fin 16384) : EReal := negHalf * ∑ k : Fin 1024, x (ix2 n k) * x (ix2 n k)

/-- The feature at row `n` and feature index `s`. -/
def featAt (n : Fin 16384) (s : Fin 2048) : EReal := scale * Ideal.exp (proj x w b n s + rowTerm x n)

/-- The whole `[16384, 2048]` array of features. -/
def feat : (⟨2, ![16384, 2048]⟩ : Shape).Idx → EReal := fun i => featAt x w b (i 0) (i 1)

theorem feat_ix2 (n : Fin 16384) (s : Fin 2048) : feat x w b (ix2 n s) = featAt x w b n s := rfl

end Cert.Feature

end
-- ==== Proof.RefFeature.lean ====
/-
  The reference computes the feature array.

  Read one operation at a time, the reference's result at row `n`, feature `s` is
  `(exp (-½ · (0 + Σ_k x[n,k]²)) · c) · exp (Σ_k x[n,k]·w[s,k] + b[s])`: the row term is computed on a `[16384, 1]`
  column and repeated along the features, the bias is laid out as a `[1, 2048]` row and repeated along the rows.
  Every layout step only renames an index; the sum's initial value is the zero word. What is left is the second
  arrangement of the feature, which the law of the exponential of a sum turns into the first.
-/
import proofs.«129186_j6030134083679_2_alg».proof.Proof.Gen.ReferenceIdeal.Read
import proofs.«129186_j6030134083679_2_alg».proof.Proof.FeatureLaw

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The row whose squares are summed for the entry `(n, s)`: through the column and the repetition, row `n`. -/
theorem rowIdx_eq (n : Fin 16384) (s : Fin 2048) (k : Fin 1024) :
    idx_main_v5 (idx_main_v6 (idx_main_v13 (ix2 n s))) k = ix2 n k :=
  funext fun a => Fin.ext (by match a with | ⟨0, _⟩ => rfl | ⟨1, _⟩ => rfl)

/-- The left factor of the product's `k`-th term at `(n, s)` is `x[n, k]`. -/
theorem lhsIdx_eq (n : Fin 16384) (s : Fin 2048) (k : Fin 1024) : lidx_main_v0 (ix2 n s) k = ix2 n k :=
  funext fun a => Fin.ext (by match a with | ⟨0, _⟩ => rfl | ⟨1, _⟩ => rfl)

/-- The right factor is `w[s, k]`. -/
theorem rhsIdx_eq (n : Fin 16384) (s : Fin 2048) (k : Fin 1024) : ridx_main_v0 (ix2 n s) k = ix2 s k :=
  funext fun a => Fin.ext (by match a with | ⟨0, _⟩ => rfl | ⟨1, _⟩ => rfl)

/-- The bias read at `(n, s)`, through the row layout and the repetition, is `b[s]`. -/
theorem biasIdx_eq (n : Fin 16384) (s : Fin 2048) : idx_main_v1 (idx_main_v2 (ix2 n s)) = ix1 s :=
  funext fun a => Fin.ext (by match a with | ⟨0, _⟩ => rfl)

/-- The reference's last stage, as a function of the three arguments, is the feature array. -/
theorem result_eq (x0 : (⟨S16384x1024, .f32⟩ : BufTy).Contents (Elt Ideal)) (x1 : (⟨S2048x1024, .f32⟩ : BufTy).Contents (Elt Ideal))
    (x2 : (⟨S2048, .f32⟩ : BufTy).Contents (Elt Ideal)) :
    val_main_v14 (F := Ideal) x0 x1 x2 = Cert.Feature.feat x0 x1 x2 := by
  funext i
  obtain ⟨n, s, rfl⟩ : ∃ (n : Fin 16384) (s : Fin 2048), i = ix2 n s := ⟨i 0, i 1, eq_ix2 i⟩
  rw [Cert.Feature.feat_ix2, val_main_v14_apply, val_main_v13_apply, val_main_v11_apply, val_main_v9_apply,
    val_main_v8_apply, val_main_v7_apply, val_main_cst_0_apply, val_main_v6_apply, val_main_v5_apply,
    val_main_cst_apply, val_main_v10_apply, val_main_cst_1_apply, val_main_v12_apply, val_main_v3_apply,
    val_main_v0_apply, val_main_v2_apply, val_main_v1_apply]
  simp only [val_main_v4_apply, rowIdx_eq, lhsIdx_eq, rhsIdx_eq, biasIdx_eq, Ideal.mulf_def, Ideal.addf_def,
    Ideal.hostUnary_exp_def, Ideal.ofBits_def, Ideal.ofBits_zero_f32, zero_add]
  exact Cert.Feature.arrange _ _ _

end Cert.ReferenceIdeal.RefValue

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.BodyFeature.lean ====
/-
  What the kernel body stores, read at one entry of its block.

  The body holds a block of 512 rows of `x`, all of `w` and the bias as a `[1, 2048]` row. At row `p` of the block
  and feature `q` it stores `c · exp ((Σ_k x[p,k]·w[q,k] + b[0,q]) + (-½ · Σ_k x[p,k]²))`:
  * the matrix product contracts the last axis of both operands and starts from the zero accumulator, so its
    entry is the plain sum of products; the change of format of `x` on the way in is the identity on extended reals;
  * the bias row is repeated down the rows;
  * the row sum of squares is a lane sum from the zero accumulator, cast to a column and repeated along the
    features.
  Each of the three is read at `(p, q)` by its own lemma; the pointwise operations around them read through.
-/
import proofs.«129186_j6030134083679_2_alg».proof.Proof.Gen.KernelIdeal.Skeleton
import proofs.«129186_j6030134083679_2_alg».proof.Proof.FeatureLaw
import proofs.«129186_j6030134083679_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen
open Idealize.ShloMosaic Idealize.ShloMosaic.ValueIdx

/-! ## The matrix product at an entry -/

theorem lhs_row (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide),
    dif_pos (show (0 : Fin S512x1024.rank) ∈ dot_S512x1024_S2048x1024_S512x2048_1_1_0_0_n_n.lhsNonContracting by decide)]
  rfl
theorem lhs_col (i : S512x2048.Idx) (q : dot_S512x1024_S2048x1024_S512x2048_1_1_0_0_n_n.contr.Idx) :
    (dot_S512x1024_S2048x1024_S512x2048_1_1_0_0_n_n.lhsIdx i q 1).val = (q ⟨0, by decide⟩).val :=
  dot_S512x1024_S2048x1024_S512x2048_1_1_0_0_n_n.lhsIdx_val_of_single rfl i q
theorem rhs_row (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide),
    dif_pos (show (0 : Fin S2048x1024.rank) ∈ dot_S512x1024_S2048x1024_S512x2048_1_1_0_0_n_n.rhsNonContracting by decide)]
  rfl
theorem rhs_col (i : S512x2048.Idx) (q : dot_S512x1024_S2048x1024_S512x2048_1_1_0_0_n_n.contr.Idx) :
    (dot_S512x1024_S2048x1024_S512x2048_1_1_0_0_n_n.rhsIdx i q 1).val = (q ⟨0, by decide⟩).val :=
  dot_S512x1024_S2048x1024_S512x2048_1_1_0_0_n_n.rhsIdx_val_of_single rfl i q

/-- The product of a `[512, 1024]` block with a `[2048, 1024]` array along their last axes, from the zero
    accumulator, at `(p, q)`: the sum over `k` of the left operand's `(p, k)` times the right operand's `(q, k)`. -/
theorem product_apply (l : FVec Ideal S512x1024 .bf16) (r : FVec Ideal S2048x1024 .bf16) (p : Fin 512) (q : Fin 2048) :
    matmul (F := Ideal) dot_S512x1024_S2048x1024_S512x2048_1_1_0_0_n_n none l r (constant (F := Ideal) S512x2048 .f32 0x00000000#32) (ix2 p q)
      = ∑ k : Fin 1024, l (ix2 p k) * r (ix2 q k) := by
  show FloatOps.matmul dot_S512x1024_S2048x1024_S512x2048_1_1_0_0_n_n none l r (constant S512x2048 .f32 0x00000000#32) (ix2 p q) = _
  rw [Ideal.matmul_constant_zero_apply, ← Equiv.sum_comp (ValueIdx.contrEquiv1 dot_S512x1024_S2048x1024_S512x2048_1_1_0_0_n_n 1024 rfl rfl).symm]
  refine Finset.sum_congr rfl fun k _ => ?_
  have hk := ValueIdx.contrEquiv1_symm_val dot_S512x1024_S2048x1024_S512x2048_1_1_0_0_n_n 1024 rfl rfl k
  have el : dot_S512x1024_S2048x1024_S512x2048_1_1_0_0_n_n.lhsIdx (ix2 p q) ((ValueIdx.contrEquiv1 dot_S512x1024_S2048x1024_S512x2048_1_1_0_0_n_n 1024 rfl rfl).symm k) = ix2 p k :=
    funext fun a => Fin.ext (by
      match a with
      | ⟨0, _⟩ => exact lhs_row _ _
      | ⟨1, _⟩ => exact (lhs_col _ _).trans hk)
  have er : dot_S512x1024_S2048x1024_S512x2048_1_1_0_0_n_n.rhsIdx (ix2 p q) ((ValueIdx.contrEquiv1 dot_S512x1024_S2048x1024_S512x2048_1_1_0_0_n_n 1024 rfl rfl).symm k) = ix2 q k :=
    funext fun a => Fin.ext (by
      match a with
      | ⟨0, _⟩ => exact rhs_row _ _
      | ⟨1, _⟩ => exact (rhs_col _ _).trans hk)
  rw [el, er]

/-- The body's product: the block of `x`, changed of format, against `w` as loaded. -/
theorem projSum_apply (x0 : FVec Ideal S512x1024 .f32) (x1 : FVec Ideal S2048x1024 .bf16) (p : Fin 512) (q : Fin 2048) :
    matmul (F := Ideal) dot_S512x1024_S2048x1024_S512x2048_1_1_0_0_n_n none (truncf .bf16 x0 bitsLt_bf16_f32)
        (shapeCast S2048x1024 x1 shapeCasts_S2048x1024_S2048x1024) (constant (F := Ideal) S512x2048 .f32 0x00000000#32) (ix2 p q)
      = ∑ k : Fin 1024, x0 (ix2 p k) * x1 (ix2 q k) := by
  rw [shapeCast_self]
  exact product_apply _ _ p q

/-! ## The bias row repeated down the rows -/

theorem biasRow_apply (x2 : FVec Ideal S1x2048 .f32) (p : Fin 512) (q : Fin 2048) :
    broadcastTo S512x2048 (shapeCast S1x2048 x2 shapeCasts_S1x2048_S1x2048) broadcasts_S1x2048_S512x2048 (ix2 p q)
      = x2 (ix2 (0 : Fin 1) q) := by
  rw [shapeCast_self]
  exact broadcastTo_1b_ab_apply x2 _ p q

/-! ## The row term -/

/-- A lane sum of a `[512, 1024]` block from the zero accumulator, at row `p`: the sum over the row. -/
theorem laneSum_apply (v : FVec Ideal S512x1024 .f32) (h : S512x1024.Reduces [1] S512) (hφ : FKind.Formats .f32)
    (hacc : (0x00000000#32 : BitVec 32) = FKind.add.neutral .f32 hφ) (p : Fin 512) :
    multiReduction (F := Ideal) .add [1] S512 v 0x00000000#32 h hφ hacc (ix1 p) = ∑ k : Fin 1024, v (ix2 p k) := by
  refine (Ideal.multiReduction_add_single v 0x00000000#32 h hφ hacc (ix1 p)).trans ?_
  refine Finset.sum_congr rfl fun k _ => congrArg v ?_
  exact funext fun c => Fin.ext (by match c with | ⟨0, _⟩ => rfl | ⟨1, _⟩ => rfl)

/-- Minus half the block row's squared length, as the body lays it out over the `[512, 2048]` block. -/
theorem rowTerm_apply (x0 : FVec Ideal S512x1024 .f32) (p : Fin 512) (q : Fin 2048) :
    broadcastTo S512x2048
        (mulf (broadcast S512x1 (Scalar.ofBits (F := Ideal) .f32 0xBF000000#32))
          (shapeCast S512x1 (multiReduction (F := Ideal) .add [1] S512 (mulf x0 x0) 0x00000000#32 reduces_S512x1024_S512 (.inl rfl) rfl)
            shapeCasts_S512_S512x1))
        broadcasts_S512x1_S512x2048 (ix2 p q)
      = Cert.Feature.negHalf * ∑ k : Fin 1024, x0 (ix2 p k) * x0 (ix2 p k) := by
  refine (Cert.Attn.Layout.broadcastTo_a1_ab_apply _ _ p q).trans ?_
  refine congrArg (Cert.Feature.negHalf * ·) ?_
  refine (Cert.Attn.Layout.shapeCast_a_a1_apply _ _ p (0 : Fin 1)).trans ?_
  exact laneSum_apply (mulf x0 x0) _ _ _ p

/-! ## The stored value -/

/-- The body's stored value at row `p` of the block and feature `q`. -/
theorem payload_apply (x0 : FVec Ideal S512x1024 .f32) (x1 : FVec Ideal S2048x1024 .bf16) (x2 : FVec Ideal S1x2048 .f32)
    (p : Fin 512) (q : Fin 2048) :
    k0_pay1 (F := Ideal) x0 x1 x2 (ix2 p q)
      = Cert.Feature.scale * Ideal.exp ((∑ k : Fin 1024, x0 (ix2 p k) * x1 (ix2 q k) + x2 (ix2 (0 : Fin 1) q))
          + Cert.Feature.negHalf * ∑ k : Fin 1024, x0 (ix2 p k) * x0 (ix2 p k)) := by
  unfold k0_pay1
  exact congrArg (fun z => Cert.Feature.scale * Ideal.exp z)
    (congrArg₂ (· + ·) (congrArg₂ (· + ·) (projSum_apply x0 x1 p q) (biasRow_apply x2 p q)) (rowTerm_apply x0 p q))

end Cert.KernelIdeal.Body

end
-- ==== Proof.BlockFeature.lean ====
/-
  From the blocks the grid points write back to the whole result array.

  The grid has 32 points. Point `t` stages rows `512·t … 512·t + 511` of `x`, the whole of `w` (converted on the
  host to the narrower format, which changes nothing on extended reals) and the bias (reshaped on the host from
  `[2048]` to a `[1, 2048]` row), and writes back rows `512·t … 512·t + 511` of the result. So what point `t` writes
  back is block `t` of the ONE feature array of the three arguments: at row `p` of the block and feature `q` the
  body's stored value is the feature of row `512·t + p` and feature `q`. Every row lies in the block of the point
  `row / 512`, so the blocks cover the result array and it ends holding the feature array.
-/
import proofs.«129186_j6030134083679_2_alg».proof.Proof.Gen.KernelIdeal.Value
import proofs.«129186_j6030134083679_2_alg».proof.Proof.BodyFeature
import Idealize.ShloMosaic.Lib.StableHlo.Run
import Idealize.ShloMosaic.Lib.Pipeline.Value
import Idealize.ShloMosaic.Lib.ValueLayout
import Idealize.ShloMosaic.PureOps.Ideal

noncomputable section

open scoped BigOperators

namespace Cert.KernelIdeal.Blocks

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The feature array of the three argument arrays as launched. -/
abbrev featOf (c : Dev nD) : S16384x2048.Idx → EReal :=
  Cert.Feature.feat (m ((c : Thread nD τ).loc main_arg0) : S16384x1024.Idx → EReal)
    (m ((c : Thread nD τ).loc main_arg1) : S2048x1024.Idx → EReal) (m ((c : Thread nD τ).loc main_arg2) : S2048.Idx → EReal)

/-! ## The index maps, and the two arrays the host prepares -/

/-- The block index of each window at point `t`: the rows of `x` and of the result move with the point, `w` and the
    bias row stay (decided over the 32 points). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- When the region is entered the second window's array is `w` changed of format. -/
theorem V_w (c : Dev nD) : (V m c main_v0 : S2048x1024.Idx → EReal)
    = truncf (F := Ideal) .bf16 (m ((c : Thread nD τ).loc main_arg1)) bitsLt_bf16_f32 := by
  dsimp only [Gen.V, Gen.hostOps0]; after_results

/-- … and the third window's array is the bias reshaped to one row. -/
theorem V_b (c : Dev nD) : (V m c main_v1 : S1x2048.Idx → EReal)
    = shapeCast S1x2048 (m ((c : Thread nD τ).loc main_arg2)) shapeCasts_S2048_S1x2048 := by
  dsimp only [Gen.V, Gen.hostOps0]; after_results; rfl

/-! ## Each input block read at an entry -/

/-- The block of `x` at point `t` is rows `512·t …` of `x`. -/
theorem xblk_apply (c : Dev nD) (t : Fin cfg0.N) (y : S512x1024.Idx) (z : S16384x1024.Idx)
    (h0 : (z 0).val = t.val * 512 + (y 0).val) (h1 : (z 1).val = (y 1).val) :
    (iblk m c 0 t : Vec Ideal S512x1024 .f32) y = (m ((c : Thread nD τ).loc main_arg0) : S16384x1024.Idx → EReal) z := by
  obtain ⟨e0, e1, -⟩ := idx_facts t
  show V m c main_arg0 (((cfg0.win 0).blk t).view.emb y) = _
  rw [V_main_arg0]
  refine congrArg _ (funext fun a => Fin.ext ?_)
  match a with
  | ⟨0, _⟩ => show win0_0.index t (0 : Fin 2) * 512 + 1 * (y 0).val = (z 0).val; omega
  | ⟨1, _⟩ => show win0_0.index t (1 : Fin 2) * 1024 + 1 * (y 1).val = (z 1).val; omega

/-- The block of the second window at any point is the whole of `w`. -/
theorem wblk_apply (c : Dev nD) (t : Fin cfg0.N) (y : S2048x1024.Idx) :
    (iblk m c 1 t : Vec Ideal S2048x1024 .bf16) y = (m ((c : Thread nD τ).loc main_arg1) : S2048x1024.Idx → EReal) y := by
  obtain ⟨-, -, e0, e1, -⟩ := idx_facts t
  show V m c main_v0 (((cfg0.win 1).blk t).view.emb y) = _
  rw [V_w]
  show (m ((c : Thread nD τ).loc main_arg1) : S2048x1024.Idx → EReal) (((cfg0.win 1).blk t).view.emb y) = _
  refine congrArg _ (funext fun a => Fin.ext ?_)
  match a with
  | ⟨0, _⟩ => show win0_1.index t (0 : Fin 2) * 2048 + 1 * (y 0).val = (y 0).val; omega
  | ⟨1, _⟩ => show win0_1.index t (1 : Fin 2) * 1024 + 1 * (y 1).val = (y 1).val; omega

/-- The block of the third window at any point is the bias, as one row. -/
theorem bblk_apply (c : Dev nD) (t : Fin cfg0.N) (q : Fin 2048) :
    (iblk m c 2 t : Vec Ideal S1x2048 .f32) (ix2 (0 : Fin 1) q) = (m ((c : Thread nD τ).loc main_arg2) : S2048.Idx → EReal) (ix1 q) := by
  obtain ⟨-, -, -, -, e0, e1, -⟩ := idx_facts t
  show V m c main_v1 (((cfg0.win 2).blk t).view.emb (ix2 (0 : Fin 1) q)) = _
  rw [V_b]
  have he : ((cfg0.win 2).blk t).view.emb (ix2 (0 : Fin 1) q) = ix2 (0 : Fin 1) q :=
    funext fun a => Fin.ext (by
      match a with
      | ⟨0, _⟩ => show win0_2.index t (0 : Fin 2) * 1 + 1 * 0 = 0; omega
      | ⟨1, _⟩ => show win0_2.index t (1 : Fin 2) * 2048 + 1 * q.val = q.val; omega)
  rw [he]
  exact shapeCast_a_1a_apply _ _ (0 : Fin 1) q

/-! ## What a point stores is a block of the feature array -/

/-- If a `[512, 1024]` block holds the rows `row p` of `X`, and the other two blocks hold `W` and the bias row, the body's
    stored value at `(p, q)` is the feature of row `row p` and feature `q`. -/
theorem point_eq (X : (⟨2, ![16384, 1024]⟩ : Shape).Idx → EReal) (W : (⟨2, ![2048, 1024]⟩ : Shape).Idx → EReal)
    (B : (⟨1, ![2048]⟩ : Shape).Idx → EReal)
    (x0 : FVec Ideal S512x1024 .f32) (x1 : FVec Ideal S2048x1024 .bf16) (x2 : FVec Ideal S1x2048 .f32)
    (row : Fin 512 → Fin 16384)
    (h0 : ∀ (p : Fin 512) (k : Fin 1024), x0 (ix2 p k) = X (ix2 (row p) k))
    (h1 : ∀ (q : Fin 2048) (k : Fin 1024), x1 (ix2 q k) = W (ix2 q k))
    (h2 : ∀ q : Fin 2048, x2 (ix2 (0 : Fin 1) q) = B (ix1 q))
    (p : Fin 512) (q : Fin 2048) :
    k0_pay1 (F := Ideal) x0 x1 x2 (ix2 p q) = Cert.Feature.feat X W B (ix2 (row p) q) := by
  rw [Body.payload_apply, Cert.Feature.feat_ix2]
  unfold Cert.Feature.featAt Cert.Feature.proj Cert.Feature.rowTerm
  simp only [h0, h1, h2]

/-- WHAT POINT `t` WRITES BACK is block `t` of the feature array. -/
theorem flushed_eq (c : Dev nD) (t : Fin cfg0.N) :
    (dats m 0 c).flushed 3 t = ((cfg0.win 3).blk t).view.read (Elt Ideal) (featOf m c) := by
  rw [Value.flushed3]
  unfold out0_3
  rw [View.canon_unit_zero hz]
  simp only [View.ld_unit_zero (S := S512x1024) hz, View.ld_unit_zero (S := S2048x1024) hz, View.ld_unit_zero (S := S1x2048) hz]
  have hN : cfg0.N = 32 := N_0
  obtain ⟨-, -, -, -, -, -, e0, e1⟩ := idx_facts t
  funext j
  show k0_pay1 (iblk m c 0 t) (iblk m c 1 t) (iblk m c 2 t) j = featOf m c (((cfg0.win 3).blk t).view.emb j)
  obtain ⟨p, q, rfl⟩ : ∃ (p : Fin 512) (q : Fin 2048), j = ix2 p q := ⟨j 0, j 1, eq_ix2 j⟩
  have hrow : ∀ p' : Fin 512, t.val * 512 + p'.val < 16384 := fun p' => by have := t.isLt; have := p'.isLt; omega
  have hemb : ((cfg0.win 3).blk t).view.emb (ix2 p q) = ix2 (⟨t.val * 512 + p.val, hrow p⟩ : Fin 16384) q :=
    funext fun a => Fin.ext (by
      match a with
      | ⟨0, _⟩ => show win0_3.index t (0 : Fin 2) * 512 + 1 * p.val = t.val * 512 + p.val; omega
      | ⟨1, _⟩ => show win0_3.index t (1 : Fin 2) * 2048 + 1 * q.val = q.val; omega)
  rw [hemb]
  exact point_eq _ _ _ (iblk m c 0 t) (iblk m c 1 t) (iblk m c 2 t) (fun p' => ⟨t.val * 512 + p'.val, hrow p'⟩)
    (fun p' k => xblk_apply m c t (ix2 p' k) (ix2 ⟨t.val * 512 + p'.val, hrow p'⟩ k) rfl rfl)
    (fun q' k => wblk_apply m c t (ix2 q' k)) (fun q' => bblk_apply m c t q') p q

/-! ## The blocks cover the array -/

/-- Every entry of the result array lies in the block of the point `row / 512`. -/
theorem cover (i : S16384x2048.Idx) :
    ∃ t : Fin cfg0.N, (cfg0.win 3).flush t = true ∧ i ∈ ((cfg0.win 3).blk t).view.set := by
  have hN : cfg0.N = 32 := N_0
  have hi0 : (i 0).val < 16384 := (i 0).isLt
  have hi1 : (i 1).val < 2048 := (i 1).isLt
  obtain ⟨t, ht⟩ : ∃ t : Fin cfg0.N, t.val = (i 0).val / 512 := ⟨⟨(i 0).val / 512, by omega⟩, rfl⟩
  obtain ⟨-, -, -, -, -, -, e0, e1⟩ := idx_facts t
  refine ⟨t, flush0_3 t, ?_⟩
  show i ∈ ((View.whole main_v2).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 2048 ≤ (i 1).val ∧ (i 1).val < win0_3.index t (1 : Fin 2) * 2048 + 2048
    omega

/-! ## The result array, and the run -/

/-- After the run the result array is the feature array of the arguments. -/
theorem final (c : Dev nD) : (dats m 0 c).arrAt 3 cfg0.N = featOf m c :=
  (dats m 0 c).arrAt_eq_of_cover 3 (featOf m c) (fun t _ => flushed_eq m c t) cover

/-- Every weakly fair execution of the kernel's program terminates with the result array at the feature array of the
    arguments, the arguments unchanged. -/
theorem run : θ_run defs (onTc (τ := τ) (main (F := Ideal))) ⟨m, fun _ => 0, ρ⟩ fun r => ∀ c : Dev nD,
      r.2.mem ((c : Thread nD τ).loc main_v2) = featOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.lean ====
/-
  Positive random features of the rows of `x`: for row `n` and feature `s`, with the projection
  `P = Σ_k x[n,k]·w[s,k] + b[s]`, the row term `Q = -½ · Σ_k x[n,k]²` and the scale `c` (the single-precision word of
  `2048^(-1/2)`, the same word in both programs), the kernel stores `c · exp (P + Q)` and the reference computes
  `(exp Q · c) · exp P`.

  At the ideal instance a float is an extended real and a change of format is the identity, so the kernel's product
  of the narrowed operands is the reference's plain product, and both row sums start from the zero word. The two
  results are then equal entry by entry by ONE law: on the extended reals the exponential of a sum is the product of
  the exponentials at every pair of arguments (`exp ⊥ = 0`, `exp ⊤ = ⊤`, and `0 · ⊤ = 0` settles `⊥ + ⊤`), after
  which only commutativity and associativity of the product are used. No finiteness of the inputs is needed for the
  values; the precondition is never opened.

  The modules: `Proof/FeatureLaw` states the feature as one function of the three arrays and proves the law;
  `Proof/RefFeature` reads the reference's operations one at a time down to that function; `Proof/BodyFeature` reads
  the kernel body's stored value at an entry of its block; `Proof/BlockFeature` shows that the block each of the 32
  grid points writes back is its block of that function and that the blocks cover the result array. The three frames
  are the generated ones (the reference's is its run with the result dropped), and the idealization rewrote nothing.
-/
import proofs.«129186_j6030134083679_2_alg».proof.Defs
import proofs.«129186_j6030134083679_2_alg».proof.Proof.Gen.Kernel
import proofs.«129186_j6030134083679_2_alg».proof.Proof.Gen.Kernel.Skeleton
import proofs.«129186_j6030134083679_2_alg».proof.Proof.Gen.Kernel.Launch
import proofs.«129186_j6030134083679_2_alg».proof.Proof.Gen.Kernel.Points
import proofs.«129186_j6030134083679_2_alg».proof.Proof.Gen.Kernel.Frame
import proofs.«129186_j6030134083679_2_alg».proof.Proof.Gen.KernelIdeal
import proofs.«129186_j6030134083679_2_alg».proof.Proof.Gen.KernelIdeal.Skeleton
import proofs.«129186_j6030134083679_2_alg».proof.Proof.Gen.KernelIdeal.Launch
import proofs.«129186_j6030134083679_2_alg».proof.Proof.Gen.KernelIdeal.Points
import proofs.«129186_j6030134083679_2_alg».proof.Proof.Gen.KernelIdeal.Frame
import proofs.«129186_j6030134083679_2_alg».proof.Proof.Gen.ReferenceIdeal
import proofs.«129186_j6030134083679_2_alg».proof.Proof.Gen.Pre_finite_inputs
import proofs.«129186_j6030134083679_2_alg».proof.Proof.Gen.KernelIdeal.Value
import proofs.«129186_j6030134083679_2_alg».proof.Proof.Gen.ReferenceIdeal.Run
import proofs.«129186_j6030134083679_2_alg».proof.Proof.Gen.ReferenceIdeal.Read
import proofs.«129186_j6030134083679_2_alg».proof.Proof.RefFeature
import proofs.«129186_j6030134083679_2_alg».proof.Proof.BlockFeature
import Idealize.ShloMosaic.Adequacy
import Idealize.ShloMosaic.Init

noncomputable section

namespace Cert.Proof

open Idealize.ShloMosaic Idealize.ShloMosaic.TcCoe Idealize.SL.Sem

/-- The kernel's program at the word-level instance runs and leaves its arguments unchanged. -/
theorem frame_kernel : Cert.frame_Kernel := fun m ρ _ => Cert.Kernel.Gen.frame m ρ

/-- So does its idealization, at the ideal instance. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments, the kernel's result array ends at the feature array of its
    arguments and the reference's last stage is the feature array of its own: one function of equal arrays. -/
theorem algebraic : Cert.algebraic_KernelIdeal_ReferenceIdeal := by
  intro m ρ m' ρ' _ hagree
  refine ⟨fun c => Cert.KernelIdeal.Blocks.featOf m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
